-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1 : Shape := ⟨2, ![65536, 1]⟩
abbrev S2048 : Shape := ⟨1, ![2048]⟩
abbrev S2049x1 : Shape := ⟨2, ![2049, 1]⟩
abbrev S_ : Shape := ⟨0, ![]⟩

class Facts : Prop where
  bcast_S_S65536x1 : S_.BroadcastsInDim S65536x1 (![] : Fin 0 → Fin S65536x1.rank)
  reducesTo_S65536x1_S_d0_1 : S65536x1.ReducesTo [0, 1] S_
  h_S_ : 0 < S_.numel
  bcast_S_S2048 : S_.BroadcastsInDim S2048 (![] : Fin 0 → Fin S2048.rank)
  reducesTo_S2048_S_d0 : S2048.ReducesTo [0] S_
  bcast_S_S2049x1 : S_.BroadcastsInDim S2049x1 (![] : Fin 0 → Fin S2049x1.rank)
  reducesTo_S2049x1_S_d0_1 : S2049x1.ReducesTo [0, 1] S_

variable [Facts]

def fn {F : FTy → Type} [FloatOps F] (main_arg0 : FVec F S65536x1 .f32) (main_arg1 : FVec F S2048 .f32) (main_arg2 : FVec F S2049x1 .f32) : IVec S_ 1 :=
  let main_v0 : FVec F S65536x1 .f32 := Host.absf main_arg0
  let main_cst : FVec F S_ .f32 := constant S_ .f32 0x7F800000#32
  let main_v1 : FVec F S65536x1 .f32 := broadcastInDim S65536x1 ![] bcast_S_S65536x1 main_cst
  let main_v2 : IVec S65536x1 1 := cmpf .olt main_v0 main_v1
  let main_c : IVec S_ 1 := constantI S_ 1 1#1
  let main_v3 : IVec S_ 1 := (fun x v => Host.reduce IntOp.andi x v reducesTo_S65536x1_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2049x1 .f32 := Host.absf main_arg2
  let main_cst_2 : FVec F S_ .f32 := constant S_ .f32 0x7F800000#32
  let main_v10 : FVec F S2049x1 .f32 := broadcastInDim S2049x1 ![] bcast_S_S2049x1 main_cst_2
  let main_v11 : IVec S2049x1 1 := cmpf .olt main_v9 main_v10
  let main_c_3 : IVec S_ 1 := constantI S_ 1 1#1
  let main_v12 : IVec S_ 1 := (fun x v => Host.reduce IntOp.andi x v reducesTo_S2049x1_S_d0_1 h_S_) main_v11 main_c_3
  let main_v13 : IVec S_ 1 := andi main_v8 main_v12
  main_v13
-- ==== Kernel.lean ====
abbrev S65536x1 : Shape := ⟨2, ![65536, 1]⟩
abbrev S2048 : Shape := ⟨1, ![2048]⟩
abbrev S2049x1 : Shape := ⟨2, ![2049, 1]⟩
abbrev S2048x1 : Shape := ⟨2, ![2048, 1]⟩
abbrev S1x2048 : Shape := ⟨2, ![1, 2048]⟩
abbrev S1x1 : Shape := ⟨2, ![1, 1]⟩
abbrev S4096x1 : Shape := ⟨2, ![4096, 1]⟩
abbrev S1x256 : Shape := ⟨2, ![1, 256]⟩
abbrev S4096x256 : Shape := ⟨2, ![4096, 256]⟩
abbrev S4096 : Shape := ⟨1, ![4096]⟩

abbrev nBuf : Space → Nat
  | .hbm => 12
  | .vmem => 7
  | .smem => 0
  | _ => 0

abbrev bufTy : (tb : Table) → Fin (tcTables nBuf tb) → BufTy
  | .hbm, ⟨0, _⟩ => ⟨S65536x1, .f32⟩
  | .hbm, ⟨1, _⟩ => ⟨S2048, .f32⟩
  | .hbm, ⟨2, _⟩ => ⟨S2049x1, .f32⟩
  | .hbm, ⟨3, _⟩ => ⟨S2048x1, .f32⟩
  | .hbm, ⟨4, _⟩ => ⟨S2048, .f32⟩
  | .hbm, ⟨5, _⟩ => ⟨S2048x1, .f32⟩
  | .hbm, ⟨6, _⟩ => ⟨S2048, .f32⟩
  | .hbm, ⟨7, _⟩ => ⟨S2048, .f32⟩
  | .hbm, ⟨8, _⟩ => ⟨S1x2048, .f32⟩
  | .hbm, ⟨9, _⟩ => ⟨S1x1, .f32⟩
  | .hbm, ⟨10, _⟩ => ⟨S1x2048, .f32⟩
  | .hbm, ⟨11, _⟩ => ⟨S65536x1, .f32⟩
  | .local _ .vmem, ⟨0, _⟩ => ⟨S4096x1, .f32⟩
  | .local _ .vmem, ⟨1, _⟩ => ⟨S4096x1, .f32⟩
  | .local _ .vmem, ⟨2, _⟩ => ⟨S1x2048, .f32⟩
  | .local _ .vmem, ⟨3, _⟩ => ⟨S1x2048, .f32⟩
  | .local _ .vmem, ⟨4, _⟩ => ⟨S1x1, .f32⟩
  | .local _ .vmem, ⟨5, _⟩ => ⟨S4096x1, .f32⟩
  | .local _ .vmem, ⟨6, _⟩ => ⟨S4096x1, .f32⟩
  | _, _ => ⟨S65536x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2049x1_S2048x1_1_0 : S2049x1.Slices ![1, 0] S2048x1
  shapeCasts_S2048x1_S2048 : S2048x1.ShapeCasts S2048
  slices_S2049x1_S2048x1_0_0 : S2049x1.Slices ![0, 0] S2048x1
  shapeCasts_S2048_S1x2048 : S2048.ShapeCasts S1x2048
  slices_S2049x1_S1x1_0_0 : S2049x1.Slices ![0, 0] S1x1
  inb_S4096x1_S4096x1_0_0 : ∀ a, (![0, 0] : Fin 2 → Nat) a + S4096x1.size a ≤ S4096x1.size a
  h_S4096x1 : 0 < S4096x1.numel
  inb_S1x2048_S1x256_0_0 : ∀ a, (![0, 0] : Fin 2 → Nat) a + S1x256.size a ≤ S1x2048.size a
  h_S1x256 : 0 < S1x256.numel
  shapeCasts_S1x256_S1x256 : S1x256.ShapeCasts S1x256
  broadcasts_S4096x1_S4096x256 : S4096x1.Broadcasts S4096x256
  broadcasts_S1x256_S4096x256 : S1x256.Broadcasts S4096x256
  reduces_S4096x256_S4096 : S4096x256.Reduces [1] S4096
  shapeCasts_S4096_S4096x1 : S4096.ShapeCasts S4096x1
  inb_S1x2048_S1x256_0_256 : ∀ a, (![0, 256] : Fin 2 → Nat) a + S1x256.size a ≤ S1x2048.size a
  inb_S1x2048_S1x256_0_512 : ∀ a, (![0, 512] : Fin 2 → Nat) a + S1x256.size a ≤ S1x2048.size a
  inb_S1x2048_S1x256_0_768 : ∀ a, (![0, 768] : Fin 2 → Nat) a + S1x256.size a ≤ S1x2048.size a
  inb_S1x2048_S1x256_0_1024 : ∀ a, (![0, 1024] : Fin 2 → Nat) a + S1x256.size a ≤ S1x2048.size a
  inb_S1x2048_S1x256_0_1280 : ∀ a, (![0, 1280] : Fin 2 → Nat) a + S1x256.size a ≤ S1x2048.size a
  inb_S1x2048_S1x256_0_1536 : ∀ a, (![0, 1536] : Fin 2 → Nat) a + S1x256.size a ≤ S1x2048.size a
  inb_S1x2048_S1x256_0_1792 : ∀ a, (![0, 1792] : Fin 2 → Nat) a + S1x256.size a ≤ S1x2048.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S65536x1.size a
  hwx0_0 : ∀ i : grid0.Coords, EltTy.bits .f32 = 32 ∨ (Rect.block (s := S65536x1) S4096x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x1.size a ≤ S65536x1.size a
  hwx0_4 : ∀ i : grid0.Coords, EltTy.bits .f32 = 32 ∨ (Rect.block (s := S65536x1) S4096x1.size (cc0_transform_4 i) (hinb0_4 i)).WholeWords (EltTy.packing .f32)

variable [Facts₀]

abbrev win0_0 : Pipeline.Window sig grid0 :=
  Pipeline.Window.ofSpec (Memref.whole main_arg0) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S4096x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x1 : Shape := ⟨2, ![65536, 1]⟩
abbrev S2048 : Shape := ⟨1, ![2048]⟩
abbrev S2049x1 : Shape := ⟨2, ![2049, 1]⟩
abbrev S1x2048 : Shape := ⟨2, ![1, 2048]⟩
abbrev S65536x2048 : Shape := ⟨2, ![65536, 2048]⟩
abbrev S_ : Shape := ⟨0, ![]⟩
abbrev S65536x2047 : Shape := ⟨2, ![65536, 2047]⟩
abbrev S65536x2049 : Shape := ⟨2, ![65536, 2049]⟩

abbrev nBuf : Space → Nat
  | .hbm => 18
  | .vmem => 0
  | .smem => 0
  | _ => 0

abbrev bufTy : (tb : Table) → Fin (tcTables nBuf tb) → BufTy
  | .hbm, ⟨0, _⟩ => ⟨S65536x1, .f32⟩
  | .hbm, ⟨1, _⟩ => ⟨S2048, .f32⟩
  | .hbm, ⟨2, _⟩ => ⟨S2049x1, .f32⟩
  | .hbm, ⟨3, _⟩ => ⟨S1x2048, .f32⟩
  | .hbm, ⟨4, _⟩ => ⟨S65536x2048, .f32⟩
  | .hbm, ⟨5, _⟩ => ⟨S65536x2048, .f32⟩
  | .hbm, ⟨6, _⟩ => ⟨S65536x2048, .i1⟩
  | .hbm, ⟨7, _⟩ => ⟨S65536x2048, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S65536x2047, .f32⟩
  | .hbm, ⟨13, _⟩ => ⟨S65536x2047, .f32⟩
  | .hbm, ⟨14, _⟩ => ⟨S65536x2047, .f32⟩
  | .hbm, ⟨15, _⟩ => ⟨S65536x1, .f32⟩
  | .hbm, ⟨16, _⟩ => ⟨S65536x2049, .f32⟩
  | .hbm, ⟨17, _⟩ => ⟨S65536x1, .f32⟩
  | _, _ => ⟨S65536x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S65536x1_S65536x2048_0_1 : S65536x1.BroadcastsInDim S65536x2048 (![0, 1] : Fin 2 → Fin S65536x2048.rank)
  bcast_S1x2048_S65536x2048_0_1 : S1x2048.BroadcastsInDim S65536x2048 (![0, 1] : Fin 2 → Fin S65536x2048.rank)
  slices_S65536x2048_S65536x1_0_0 : S65536x2048.Slices ![0, 0] S65536x1
  bcast_S_S65536x1 : S_.BroadcastsInDim S65536x1 (![] : Fin 0 → Fin S65536x1.rank)
  slices_S65536x2048_S65536x2047_0_0 : S65536x2048.Slices ![0, 0] S65536x2047
  slices_S65536x2048_S65536x2047_0_1 : S65536x2048.Slices ![0, 1] S65536x2047
  slices_S65536x2048_S65536x1_0_2047 : S65536x2048.Slices ![0, 2047] S65536x1
  concatenates_S65536x1_S65536x2047_S65536x1_S65536x2049_d1 : Shape.Concatenates [S65536x1, S65536x2047, S65536x1] S65536x2049 1
  dot_S65536x2049_S2049x1_S65536x1_1_0_0_1_n_n_wf : DotDims.WF S65536x2049 S2049x1 S65536x1 [1] [0] [0] [1] [] []

variable [Facts₀]

def dot_S65536x2049_S2049x1_S65536x1_1_0_0_1_n_n : DotDims S65536x2049 S2049x1 S65536x1 where
  lhsContracting := [1]
  rhsContracting := [0]
  lhsNonContracting := [0]
  rhsNonContracting := [1]
  lhsBatch := []
  rhsBatch := []
  wf := dot_S65536x2049_S2049x1_S65536x1_1_0_0_1_n_n_wf

class Facts : Prop extends Facts₀ where

variable [Facts]
-- ==== Proof.Finite.lean ====
/-
  What the precondition gives: every height is a real number.

  The precondition is the conjunction of three "all entries are finite" tests, one per input; a test compares |a| with
  +∞ entry by entry and takes the conjunction over the array.  On the extended reals |a| = max a (−a) is below +∞ exactly
  when a is neither infinity, that is when a is a real number.  Only the third input's test (the heights) is needed: the
  step function's two spellings agree whatever the point and the breakpoints are.
-/
import proofs.«162538_j11785390260311_2_alg».proof.Pre_finite_inputs
import Idealize.ShloMosaic.Lib.ReduceAll
import Idealize.ShloMosaic.Lib.ValueIdx
import Idealize.ShloMosaic.PureOps.Ideal.Laws

noncomputable section

open Idealize.ShloMosaic

namespace Cert.StepNet

/-- An extended real whose absolute value is below +∞ is a real number. -/
theorem real_of_abs_lt_inf (a : EReal)
    (h : Ideal.cmp .olt (max a (-a)) (Ideal.ofBits .f32 0x7F800000#32) = 1#1) : ∃ r : ℝ, a = (r : EReal) := by
  have hinf : Ideal.ofBits .f32 0x7F800000#32 = ⊤ := by simp [Ideal.ofBits, Ideal.ieee]
  rw [hinf] at h
  induction a using EReal.rec with
  | bot => simp [Ideal.cmp] at h
  | coe r => exact ⟨r, rfl⟩
  | top => simp [Ideal.cmp] at h

instance : Subsingleton Cert.Pre_finite_inputs.S_.Idx := ⟨fun _ _ => funext fun d => d.elim0⟩

/-- Under the precondition every entry of the third input is a real number. -/
theorem heights_real [Cert.Pre_finite_inputs.Facts]
    (x0 : FVec Ideal Cert.Pre_finite_inputs.S65536x1 .f32) (x1 : FVec Ideal Cert.Pre_finite_inputs.S2048 .f32)
    (x2 : FVec Ideal Cert.Pre_finite_inputs.S2049x1 .f32)
    (h : Cert.Pre_finite_inputs.fn (F := Ideal) x0 x1 x2 = fun _ => 1#1) (i : Cert.Pre_finite_inputs.S2049x1.Idx) :
    ∃ r : ℝ, x2 i = (r : EReal) := by
  have h0 := congrFun h ValueIdx.ix0
  dsimp only [Cert.Pre_finite_inputs.fn] at h0
  obtain ⟨-, h12⟩ := IntOp.andi_eq_one.1 h0
  exact real_of_abs_lt_inf (x2 i) (Host.reduce_andi_all _ _ _ _ _ h12 i)

end Cert.StepNet

end
-- ==== Proof.Telescope.lean ====
/-
  A staircase written two ways.

  Fix a point x, breakpoints b_0 … b_{n-1} and heights v_0 … v_n, and let h_j be the indicator of b_j < x, read as a
  number.  The one-hot "region" weights are

      r_0 = 1 − h_0,    r_k = h_{k−1} − h_k  (0 < k < n),    r_n = h_{n−1},

  that is r_k = L_k − R_k with L the indicators shifted right behind a leading 1 and R the indicators followed by a
  trailing 0.  Summation by parts gives, for ANY real h (it need not be an indicator, nor monotone),

      ∑_{k ≤ n} r_k v_k  =  v_0 + ∑_{j < n} h_j (v_{j+1} − v_j):

  the weighted sum of the heights is the first height plus the jumps at the breakpoints below x.  Over the reals this is
  two re-indexings and distributivity.  On the extended reals distributivity fails at the infinities, so the law is
  stated for heights that are real numbers; the indicators are real by construction, the point and the breakpoints may be
  anything.  Here n = 2048, and the right-hand sum is taken in eight consecutive runs of 256 added left to right from 0,
  the first height added last.
-/
import Idealize.ShloMosaic.PureOps.Ideal
import Idealize.ShloMosaic.Lib.ValueIdx
import Mathlib.Algebra.BigOperators.Fin

noncomputable section

open scoped BigOperators
open Idealize.ShloMosaic

namespace Cert.StepNet

/-! ## Over the reals -/

/-- The indicators shifted one place to the right behind a leading one. -/
def leftOf {n : ℕ} (h : Fin n → ℝ) (k : Fin (n + 1)) : ℝ :=
  if _hk : k.val = 0 then 1 else h ⟨k.val - 1, by have := k.isLt; omega⟩

/-- The indicators followed by a trailing zero. -/
def rightOf {n : ℕ} (h : Fin n → ℝ) (k : Fin (n + 1)) : ℝ :=
  if hk : k.val < n then h ⟨k.val, hk⟩ else 0

theorem sum_leftOf {n : ℕ} (h : Fin n → ℝ) (a : Fin (n + 1) → ℝ) :
    ∑ k, leftOf h k * a k = a 0 + ∑ j : Fin n, h j * a j.succ := by
  rw [Fin.sum_univ_succ]
  have e0 : leftOf h 0 = 1 := by simp [leftOf]
  have e : ∀ j : Fin n, leftOf h j.succ = h j := fun j => by
    unfold leftOf
    rw [dif_neg (by simp)]
    exact congrArg h (Fin.ext (by simp))
  simp only [e0, e, one_mul]

theorem sum_rightOf {n : ℕ} (h : Fin n → ℝ) (a : Fin (n + 1) → ℝ) :
    ∑ k, rightOf h k * a k = ∑ j : Fin n, h j * a j.castSucc := by
  rw [Fin.sum_univ_castSucc]
  have hl : rightOf h (Fin.last n) = 0 := by unfold rightOf; rw [dif_neg (by simp)]
  rw [hl, zero_mul, add_zero]
  refine Finset.sum_congr rfl fun j _ => ?_
  have e : rightOf h j.castSucc = h j := by
    unfold rightOf
    rw [dif_pos (show j.castSucc.val < n from j.isLt)]
    rfl
  rw [e]

/-- Summation by parts: the region weights against the heights are the first height plus the jumps weighted by the
    indicators. -/
theorem telescope {n : ℕ} (h : Fin n → ℝ) (a : Fin (n + 1) → ℝ) :
    ∑ k, (leftOf h k - rightOf h k) * a k = a 0 + ∑ j : Fin n, h j * (a j.succ - a j.castSucc) := by
  simp only [sub_mul, mul_sub, Finset.sum_sub_distrib, sum_leftOf, sum_rightOf]
  ring

/-! ## Sums of real numbers inside the extended reals, and 2048 = 8 · 256 -/

/-- The inclusion of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A sum over 2048 places is the sum over 8 runs of the sums over the 256 places of a run. -/
theorem sum_chunks {M : Type} [AddCommMonoid M] (f : Fin 2048 → M) :
    ∑ j, f j = ∑ c : Fin 8, ∑ k : Fin 256, f ⟨256 * c.val + k.val, by have := c.isLt; have := k.isLt; omega⟩ := by
  rw [← Equiv.sum_comp (finProdFinEquiv : Fin 8 × Fin 256 ≃ Fin 2048) f, Fintype.sum_prod_type]
  refine Finset.sum_congr rfl fun c _ => Finset.sum_congr rfl fun k _ => congrArg f (Fin.ext ?_)
  show k.val + 256 * c.val = 256 * c.val + k.val
  omega

/-! ## The two programs' element, on the extended reals -/

/-- The indicator of "the breakpoint is below the point", as a number: the comparison's bit read unsigned. -/
def ind (x : EReal) (bp : Fin 2048 → EReal) (j : Fin 2048) : ℝ := ((Ideal.cmp .ogt x (bp j)).toNat : ℝ)

/-- The weight of region k as the reference computes it: three pieces laid side by side. -/
def region (h : Fin 2048 → ℝ) (k : Fin 2049) : EReal :=
  if _h0 : k.val = 0 then (1 : EReal) - (h ⟨0, by omega⟩ : EReal)
  else if h1 : k.val < 2048 then (h ⟨k.val - 1, by omega⟩ : EReal) - (h ⟨k.val, h1⟩ : EReal)
  else (h ⟨2047, by omega⟩ : EReal)

/-- The reference's element: the regions' weights against the heights. -/
def refSide (x : EReal) (bp : Fin 2048 → EReal) (v : Fin 2049 → EReal) : EReal :=
  ∑ k : Fin 2049, region (ind x bp) k * v k

/-- One run of 256 breakpoints: the jumps at those of them that lie below the point. -/
def chunk (x : EReal) (bp : Fin 2048 → EReal) (v : Fin 2049 → EReal) (c : Fin 8) : EReal :=
  ∑ k : Fin 256, Scalar.select (Ideal.cmp .ogt x (bp ⟨256 * c.val + k.val, by have := c.isLt; have := k.isLt; omega⟩))
    (v (Fin.succ ⟨256 * c.val + k.val, by have := c.isLt; have := k.isLt; omega⟩)
      - v (Fin.castSucc ⟨256 * c.val + k.val, by have := c.isLt; have := k.isLt; omega⟩)) (0 : EReal)

/-- The kernel's element: the eight runs added left to right from zero, then the first height. -/
def kerSide (x : EReal) (bp : Fin 2048 → EReal) (v : Fin 2049 → EReal) : EReal :=
  ((((((((0 + chunk x bp v 0) + chunk x bp v 1) + chunk x bp v 2) + chunk x bp v 3) + chunk x bp v 4)
    + chunk x bp v 5) + chunk x bp v 6) + chunk x bp v 7) + v 0

/-- A region's weight is the real number L_k − R_k. -/
theorem region_eq (h : Fin 2048 → ℝ) (k : Fin 2049) : region h k = ((leftOf h k - rightOf h k : ℝ) : EReal) := by
  obtain ⟨kv, hkv⟩ := k
  unfold region leftOf rightOf
  by_cases h0 : kv = 0
  · subst h0
    simp
  · by_cases h1 : kv < 2048
    · simp [h0, h1]
    · have e : kv = 2048 := by omega
      subst e
      simp

/-- Selecting a real number by a bit, else zero, is multiplying it by the bit. -/
theorem select_coe (b : BitVec 1) (d : ℝ) : Scalar.select b (d : EReal) (0 : EReal) = (((b.toNat : ℝ) * d : ℝ) : EReal) := by
  by_cases hb : b = 1#1
  · subst hb
    simp [Scalar.select]
  · have hz : b = 0#1 := by revert hb; revert b; decide
    subst hz
    simp [Scalar.select]

/-- THE LAW: for real heights the reference's element is the kernel's. -/
theorem refSide_eq_kerSide (x : EReal) (bp : Fin 2048 → EReal) (v : Fin 2049 → EReal)
    (hv : ∀ k, ∃ r : ℝ, v k = (r : EReal)) : refSide x bp v = kerSide x bp v := by
  choose a ha using hv
  obtain rfl : v = fun k => (a k : EReal) := funext ha
  -- the jump at a breakpoint, weighted by its indicator
  let g : Fin 2048 → ℝ := fun j => ind x bp j * (a j.succ - a j.castSucc)
  have hc : ∀ c : Fin 8, chunk x bp (fun k => (a k : EReal)) c
      = ((∑ k : Fin 256, g ⟨256 * c.val + k.val, by have := c.isLt; have := k.isLt; omega⟩ : ℝ) : EReal) := fun c => by
    unfold chunk
    rw [coe_sum]
    refine Finset.sum_congr rfl fun k _ => ?_
    rw [← EReal.coe_sub, select_coe]
    rfl
  have hk : kerSide x bp (fun k => (a k : EReal)) = ((∑ j, g j + a 0 : ℝ) : EReal) := by
    unfold kerSide
    rw [sum_chunks g, Fin.sum_univ_eight, hc 0, hc 1, hc 2, hc 3, hc 4, hc 5, hc 6, hc 7, zero_add]
    simp only [EReal.coe_add]
  have hr : refSide x bp (fun k => (a k : EReal)) = ((a 0 + ∑ j, g j : ℝ) : EReal) := by
    unfold refSide
    rw [← telescope (ind x bp) a, coe_sum]
    refine Finset.sum_congr rfl fun k _ => ?_
    rw [region_eq, ← EReal.coe_mul]
  rw [hk, hr, add_comm]

/-! ## The whole result -/

/-- THE RESULT as one function of the three inputs, element by element: row i of the column of points against all the
    breakpoints and heights, in the kernel's order of summation. -/
def G (x : (⟨2, ![65536, 1]⟩ : Shape).Idx → EReal) (bp : (⟨1, ![2048]⟩ : Shape).Idx → EReal)
    (v : (⟨2, ![2049, 1]⟩ : Shape).Idx → EReal) : (⟨2, ![65536, 1]⟩ : Shape).Idx → EReal :=
  fun i => kerSide (x i) (fun j => bp (ValueIdx.ix1 j)) (fun k => v (ValueIdx.ix2 k (0 : Fin 1)))

end Cert.StepNet

end
-- ==== Proof.RefRead.lean ====
/-
  The reference's result, element by element.

  Row r of the reference compares the point x_r with every breakpoint, converts the bits to numbers h_0 … h_2047, lays
  1 − h_0, the 2047 differences h_{k−1} − h_k and h_2047 side by side as 2049 region weights, and contracts the weights
  with the heights.  Read at (r, 0) that is the sum over the 2049 regions of weight times height: the left-hand side of
  the staircase law.  The pieces of the side-by-side layout are read one at a time: column 0 is the first piece, columns
  1 … 2047 the second at column k − 1, column 2048 the third.
-/
import proofs.«162538_j11785390260311_2_alg».proof.Proof.Gen.ReferenceIdeal.Read
import proofs.«162538_j11785390260311_2_alg».proof.Proof.Telescope
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.StepNet.Ref

open Cert.ReferenceIdeal Cert.ReferenceIdeal.Gen Cert.ReferenceIdeal.Read

variable (x0 : (⟨S65536x1, .f32⟩ : BufTy).Contents (Elt Ideal)) (x1 : (⟨S2048, .f32⟩ : BufTy).Contents (Elt Ideal))

/-- The row's point and the breakpoints as plain families. -/
abbrev pt (r : Fin 65536) : EReal := x0 (ix2 r (0 : Fin 1))
abbrev bps : Fin 2048 → EReal := fun j => x1 (ix1 j)

/-- The float one is the number one. -/
theorem one_f32 : Ideal.ofBits .f32 0x3F800000#32 = 1 := IdealRules.sign_bit.ideal_onePat .f32

/-- The three pieces laid side by side: the left weight, the middle differences, the right weight. -/
abbrev pieces : List ((s : Shape) × (s.Idx → Elt Ideal .f32)) :=
  [⟨S65536x1, (val_main_v7 (F := Ideal) x0 x1)⟩, ⟨S65536x2047, (val_main_v10 (F := Ideal) x0 x1)⟩,
    ⟨S65536x1, (val_main_v11 (F := Ideal) x0 x1)⟩]

/-- The converted comparison at (r, j): the indicator of "breakpoint j is below the point of row r". -/
theorem indicator_apply (r : Fin 65536) (j : Fin 2048) :
    val_main_v4 (F := Ideal) x0 x1 (ix2 r j) = ((StepNet.ind (pt x0 r) (bps x1) j : ℝ) : EReal) := by
  rw [val_main_v4_apply, val_main_v3_apply, val_main_v1_apply, val_main_v2_apply, val_main_v0_apply]
  have e1 : idx_main_v1 (ix2 r j) = ix2 r (0 : Fin 1) := funext fun a => Fin.ext (by
    match a with
    | ⟨0, _⟩ => rfl
    | ⟨1, _⟩ => rfl)
  have e2 : idx_main_v0 (idx_main_v2 (ix2 r j)) = ix1 j := funext fun a => Fin.ext (by
    match a with
    | ⟨0, _⟩ => rfl)
  rw [e1, e2]
  rfl

/-- The region weights at (r, k): the three pieces read by the column. -/
theorem regions_apply (r : Fin 65536) (k : Fin 2049) :
    val_main_v12 (F := Ideal) x0 x1 (ix2 r k) = StepNet.region (StepNet.ind (pt x0 r) (bps x1)) k := by
  unfold val_main_v12 StepNet.region
  by_cases h0 : k.val = 0
  · rw [dif_pos h0]
    refine (concatenate_apply_piece (t := S65536x2049) (1 : Fin 2) (pieces x0 x1)
      concatenates_S65536x1_S65536x2047_S65536x1_S65536x2049_d1 (ix2 r k)
      0 (show 0 < 3 by omega) S65536x1 (val_main_v7 (F := Ideal) x0 x1) rfl rfl 0 rfl (ix2 r (0 : Fin 1))
      (fun b hb => by
        match b with
        | ⟨0, _⟩ => rfl
        | ⟨1, _⟩ => exact absurd rfl hb)
      (by show 0 + 0 = k.val; omega)).trans ?_
    rw [val_main_v7_apply, val_main_v6_apply, val_main_cst_apply, val_main_v5_apply]
    have e : idx_main_v5 (ix2 r (0 : Fin 1)) = ix2 r (⟨0, by omega⟩ : Fin 2048) := funext fun a => Fin.ext (by
      match a with
      | ⟨0, _⟩ => rfl
      | ⟨1, _⟩ => rfl)
    rw [e, indicator_apply]
    show Ideal.ofBits .f32 0x3F800000#32 - _ = _
    rw [one_f32]
  · rw [dif_neg h0]
    by_cases h1 : k.val < 2048
    · rw [dif_pos h1]
      refine (concatenate_apply_piece (t := S65536x2049) (1 : Fin 2) (pieces x0 x1)
        concatenates_S65536x1_S65536x2047_S65536x1_S65536x2049_d1 (ix2 r k)
        1 (show 1 < 3 by omega) S65536x2047 (val_main_v10 (F := Ideal) x0 x1) rfl rfl 1 rfl
        (ix2 r (⟨k.val - 1, by omega⟩ : Fin 2047))
        (fun b hb => by
          match b with
          | ⟨0, _⟩ => rfl
          | ⟨1, _⟩ => exact absurd rfl hb)
        (by show 1 + (k.val - 1) = k.val; omega)).trans ?_
      rw [val_main_v10_apply, val_main_v8_apply, val_main_v9_apply]
      have e8 : idx_main_v8 (ix2 r (⟨k.val - 1, by omega⟩ : Fin 2047)) = ix2 r (⟨k.val - 1, by omega⟩ : Fin 2048) :=
        funext fun a => Fin.ext (by
          match a with
          | ⟨0, _⟩ => rfl
          | ⟨1, _⟩ => rfl)
      have e9 : idx_main_v9 (ix2 r (⟨k.val - 1, by omega⟩ : Fin 2047)) = ix2 r (⟨k.val, h1⟩ : Fin 2048) :=
        funext fun a => Fin.ext (by
          match a with
          | ⟨0, _⟩ => rfl
          | ⟨1, _⟩ => show 1 + (k.val - 1) = k.val; omega)
      rw [e8, e9, indicator_apply, indicator_apply]
      rfl
    · rw [dif_neg h1]
      have hk : k.val = 2048 := by have := k.isLt; omega
      refine (concatenate_apply_piece (t := S65536x2049) (1 : Fin 2) (pieces x0 x1)
        concatenates_S65536x1_S65536x2047_S65536x1_S65536x2049_d1 (ix2 r k)
        2 (show 2 < 3 by omega) S65536x1 (val_main_v11 (F := Ideal) x0 x1) rfl rfl 2048 rfl (ix2 r (0 : Fin 1))
        (fun b hb => by
          match b with
          | ⟨0, _⟩ => rfl
          | ⟨1, _⟩ => exact absurd rfl hb)
        (by show 2048 + 0 = k.val; omega)).trans ?_
      rw [val_main_v11_apply]
      have e : idx_main_v11 (ix2 r (0 : Fin 1)) = ix2 r (⟨2047, by omega⟩ : Fin 2048) := funext fun a => Fin.ext (by
        match a with
        | ⟨0, _⟩ => rfl
        | ⟨1, _⟩ => rfl)
      rw [e, indicator_apply]

/-- THE REFERENCE'S ELEMENT at row r: the regions' weights against the heights. -/
theorem result_apply (x2 : (⟨S2049x1, .f32⟩ : BufTy).Contents (Elt Ideal)) (r : Fin 65536) (q : Fin 1) :
    val_main_v13 (F := Ideal) x0 x1 x2 (ix2 r q)
      = StepNet.refSide (pt x0 r) (bps x1) (fun k => x2 (ix2 k (0 : Fin 1))) := by
  obtain rfl : q = 0 := Subsingleton.elim _ _
  rw [val_main_v13_apply]
  unfold StepNet.refSide
  refine Finset.sum_congr rfl fun k _ => ?_
  have el : lidx_main_v13 (ix2 r (0 : Fin 1)) k = ix2 r k := funext fun a => Fin.ext (by
    match a with
    | ⟨0, _⟩ => rfl
    | ⟨1, _⟩ => rfl)
  have er : ridx_main_v13 (ix2 r (0 : Fin 1)) k = ix2 k (0 : Fin 1) := funext fun a => Fin.ext (by
    match a with
    | ⟨0, _⟩ => rfl
    | ⟨1, _⟩ => rfl)
  rw [el, er, regions_apply]

/-- THE REFERENCE IS THE RESULT FUNCTION, when the heights are real numbers (the staircase law, row by row). -/
theorem result_eq_G (x2 : (⟨S2049x1, .f32⟩ : BufTy).Contents (Elt Ideal)) (hv : ∀ i, ∃ a : ℝ, x2 i = (a : EReal)) :
    val_main_v13 (F := Ideal) x0 x1 x2 = StepNet.G x0 x1 x2 := by
  funext i
  obtain ⟨r, q, rfl⟩ : ∃ (r : Fin 65536) (q : Fin 1), i = ix2 r q := ⟨i 0, i 1, eq_ix2 i⟩
  rw [result_apply]
  obtain rfl : q = 0 := Subsingleton.elim _ _
  exact StepNet.refSide_eq_kerSide _ _ _ (fun k => hv _)

end Cert.StepNet.Ref

end
-- ==== Proof.LibColumnBroadcast.lean ====
/-
  A column broadcast along rows, read at an index: the companion of the library's one-row form
  (`broadcastTo_1b_ab_apply`, one row repeated down the rows) for one COLUMN repeated across the columns.
-/
import Idealize.ShloMosaic.Lib.Pipeline.Value
import Idealize.ShloMosaic.Lib.ValueIdx

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibKeepdimsColumn.lean ====
/-
  A vector of extent `a` seen as a column `[a, 1]`: what `keepdims=True` leaves of a sum over the last axis, and what a
  reshape of a flat array to a column is. Row-major, the element at `(i, u)` of the column is the element at `i` of the
  vector, since `i · 1 + u = i` for the one value `u = 0`. And the sums over the index sets of a flat array and of a
  column, each as the sum over the one coordinate that varies.
-/
import Idealize.ShloMosaic.Lib.ValueLayout

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows, each read at the one column `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibKeepdims

end
-- ==== Proof.KernelPay.lean ====
/-
  What one grid point stores, element by element.

  A point holds 4096 rows of the points column, the whole row of 2048 breakpoints, the whole row of 2048 jumps and the
  first height.  For each of eight consecutive runs of 256 breakpoints it compares every row's point with the run's
  breakpoints, keeps the jump where the breakpoint is below the point and zero elsewhere, and sums along the run; the
  eight row sums are added left to right onto a zero column and the first height is added last.  Read at row p, a run's
  row sum is the sum over its 256 places of "jump if breakpoint < point else 0", the comparison's left operand being
  the row's one point (a column repeated across the run) and its right operand and the jumps being rows repeated down
  the block.
-/
import proofs.«162538_j11785390260311_2_alg».proof.Proof.Gen.KernelIdeal.Frame
import proofs.«162538_j11785390260311_2_alg».proof.Proof.LibColumnBroadcast
import proofs.«162538_j11785390260311_2_alg».proof.Proof.LibKeepdimsColumn
import proofs.«162538_j11785390260311_2_alg».proof.Proof.Telescope
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.StepNet.Ker

open Cert.KernelIdeal Cert.KernelIdeal.Gen

/-- All offsets zero, however spelt. -/
theorem hz : (![0, 0] : Fin 2 → Nat) = fun _ => 0 := funext fun a => by fin_cases a <;> rfl

/-- One run's contribution to every row of the block: compare, keep the jump or zero, sum along the run, as a column. -/
def lane (x0 : FVec Ideal S4096x1 .f32) (xb db : FVec Ideal S1x256 .f32) : FVec Ideal S4096x1 .f32 :=
  shapeCast S4096x1
    (multiReduction .add [1] S4096
      (select
        (cmpf .ogt (broadcastTo S4096x256 x0 broadcasts_S4096x1_S4096x256)
          (broadcastTo S4096x256 (shapeCast S1x256 xb shapeCasts_S1x256_S1x256) broadcasts_S1x256_S4096x256))
        (broadcastTo S4096x256 (shapeCast S1x256 (shapeCast S1x256 db shapeCasts_S1x256_S1x256) shapeCasts_S1x256_S1x256)
          broadcasts_S1x256_S4096x256)
        (broadcast S4096x256 (Scalar.ofBits .f32 0x00000000#32)))
      0x00000000#32 reduces_S4096x256_S4096 (.inl rfl) rfl)
    shapeCasts_S4096_S4096x1

/-- The stored block is the eight runs' columns added from a zero column, then the first height's column. -/
theorem out_eq (x0 : Vec Ideal S4096x1 .f32) (x1 x2 : Vec Ideal S1x2048 .f32) (x3 : Vec Ideal S1x1 .f32) :
    out0_4 x0 x1 x2 x3
      = addf (addf (addf (addf (addf (addf (addf (addf (addf
          (broadcast S4096x1 (Scalar.ofBits .f32 0x00000000#32))
          (lane x0 (View.ld x1 r0_1) (View.ld x2 r0_1)))
          (lane x0 (View.ld x1 r0_2) (View.ld x2 r0_2)))
          (lane x0 (View.ld x1 r0_3) (View.ld x2 r0_3)))
          (lane x0 (View.ld x1 r0_4) (View.ld x2 r0_4)))
          (lane x0 (View.ld x1 r0_5) (View.ld x2 r0_5)))
          (lane x0 (View.ld x1 r0_6) (View.ld x2 r0_6)))
          (lane x0 (View.ld x1 r0_7) (View.ld x2 r0_7)))
          (lane x0 (View.ld x1 r0_8) (View.ld x2 r0_8)))
          (broadcastTo S4096x1 (shapeCast S1x1 x3 shapeCasts_S1x1_S1x1) broadcasts_S1x1_S4096x1) := by
  unfold out0_4
  rw [View.canon_unit_zero hz]
  simp only [View.ld_unit_zero (S := S4096x1) hz, View.ld_unit_zero (S := S1x1) hz]
  rfl

/-- A sum along the run, read at row p. -/
theorem runSum_apply (src : FVec Ideal S4096x256 .f32) (p : Fin 4096) :
    multiReduction .add [1] S4096 src 0x00000000#32 reduces_S4096x256_S4096 (.inl rfl) rfl (ix1 p)
      = ∑ k : Fin 256, src (ix2 p k) :=
  (Ideal.multiReduction_add_single src 0x00000000#32 reduces_S4096x256_S4096 (.inl rfl) rfl (ix1 p)).trans
    (Finset.sum_congr rfl fun k _ => congrArg src (funext fun a => Fin.ext (by
      match a with
      | ⟨0, _⟩ => rfl
      | ⟨1, _⟩ => rfl)))

/-- One run's column at row p: the jumps at the run's breakpoints below the row's point. -/
theorem lane_apply (x0 : FVec Ideal S4096x1 .f32) (xb db : FVec Ideal S1x256 .f32) (p : Fin 4096) (q : Fin 1) :
    lane x0 xb db (ix2 p q)
      = ∑ k : Fin 256, Scalar.select (Ideal.cmp .ogt (x0 (ix2 p (0 : Fin 1))) (xb (ix2 (0 : Fin 1) k)))
          (db (ix2 (0 : Fin 1) k)) (0 : EReal) := by
  unfold lane
  rw [Cert.LibKeepdims.shapeCast_a_a1_apply, runSum_apply]
  refine Finset.sum_congr rfl fun k _ => ?_
  rw [select_apply, cmpf_apply, broadcastTo_a1_ab_apply, broadcastTo_1b_ab_apply, broadcastTo_1b_ab_apply,
    shapeCast_self, shapeCast_self, shapeCast_self, broadcast_apply]
  show Scalar.select (Ideal.cmp .ogt _ _) _ (Ideal.ofBits .f32 0x00000000#32) = _
  rw [Ideal.ofBits_zero_f32]

/-- A run of 256 loaded from a row of 2048 at offset o, read at place k: the row at o + k. -/
theorem ld_run (x : Vec Ideal S1x2048 .f32) (o : Nat) (inb : ∀ a, (![0, o] : Fin 2 → Nat) a + S1x256.size a ≤ S1x2048.size a)
    (k : Fin 256) (hk : o + k.val < 2048) :
    View.ld x (Rect.unit (s := S1x2048) ![0, o] S1x256.size inb) (ix2 (0 : Fin 1) k) = x (ix2 (0 : Fin 1) (⟨o + k.val, hk⟩ : Fin 2048)) := by
  show x _ = x _
  refine congrArg x (funext fun a => Fin.ext ?_)
  match a with
  | ⟨0, _⟩ => rfl
  | ⟨1, _⟩ => show o + 1 * k.val = o + k.val; omega

/-- One run of the stored row over the block's own rows. -/
def runAt (x0 : Vec Ideal S4096x1 .f32) (x1 x2 : Vec Ideal S1x2048 .f32) (p : Fin 4096) (c : Fin 8) : EReal :=
  ∑ k : Fin 256, Scalar.select
    (Ideal.cmp .ogt (x0 (ix2 p (0 : Fin 1)))
      (x1 (ix2 (0 : Fin 1) (⟨256 * c.val + k.val, by have := c.isLt; have := k.isLt; omega⟩ : Fin 2048))))
    (x2 (ix2 (0 : Fin 1) (⟨256 * c.val + k.val, by have := c.isLt; have := k.isLt; omega⟩ : Fin 2048))) (0 : EReal)

/-- A run's column, with its loads spelt over the whole rows: run c starts at place o = 256 c. -/
theorem lane_ld_apply (x0 : Vec Ideal S4096x1 .f32) (x1 x2 : Vec Ideal S1x2048 .f32) (c : Fin 8) (o : Nat)
    (ho : o = 256 * c.val)
    (inb : ∀ a, (![0, o] : Fin 2 → Nat) a + S1x256.size a ≤ S1x2048.size a) (p : Fin 4096) (q : Fin 1) :
    lane x0 (View.ld x1 (Rect.unit (s := S1x2048) ![0, o] S1x256.size inb))
        (View.ld x2 (Rect.unit (s := S1x2048) ![0, o] S1x256.size inb)) (ix2 p q)
      = runAt x0 x1 x2 p c := by
  subst ho
  rw [lane_apply]
  unfold runAt
  refine Finset.sum_congr rfl fun k _ => ?_
  rw [ld_run x1 (256 * c.val) inb k (by have := c.isLt; have := k.isLt; omega),
    ld_run x2 (256 * c.val) inb k (by have := c.isLt; have := k.isLt; omega)]

/-- THE STORED ELEMENT at row p of the block. -/
theorem out_apply (x0 : Vec Ideal S4096x1 .f32) (x1 x2 : Vec Ideal S1x2048 .f32) (x3 : Vec Ideal S1x1 .f32)
    (p : Fin 4096) :
    out0_4 x0 x1 x2 x3 (ix2 p (0 : Fin 1))
      = ((((((((0 + runAt x0 x1 x2 p 0) + runAt x0 x1 x2 p 1) + runAt x0 x1 x2 p 2) + runAt x0 x1 x2 p 3)
          + runAt x0 x1 x2 p 4) + runAt x0 x1 x2 p 5) + runAt x0 x1 x2 p 6) + runAt x0 x1 x2 p 7)
        + x3 (ix2 (0 : Fin 1) (0 : Fin 1)) := by
  rw [out_eq]
  simp only [addf_apply]
  rw [lane_ld_apply x0 x1 x2 0 0 rfl inb_S1x2048_S1x256_0_0 p 0,
    lane_ld_apply x0 x1 x2 1 256 rfl inb_S1x2048_S1x256_0_256 p 0,
    lane_ld_apply x0 x1 x2 2 512 rfl inb_S1x2048_S1x256_0_512 p 0,
    lane_ld_apply x0 x1 x2 3 768 rfl inb_S1x2048_S1x256_0_768 p 0,
    lane_ld_apply x0 x1 x2 4 1024 rfl inb_S1x2048_S1x256_0_1024 p 0,
    lane_ld_apply x0 x1 x2 5 1280 rfl inb_S1x2048_S1x256_0_1280 p 0,
    lane_ld_apply x0 x1 x2 6 1536 rfl inb_S1x2048_S1x256_0_1536 p 0,
    lane_ld_apply x0 x1 x2 7 1792 rfl inb_S1x2048_S1x256_0_1792 p 0]
  rw [broadcast_apply, broadcastTo_1b_ab_apply, shapeCast_self, Ideal.ofBits_def, Ideal.ofBits_zero_f32]

/-- The stored element is the kernel's side of the staircase law, once the block's loads are named: the row's point
    X, the breakpoints bp, the jumps as differences of consecutive heights v, and the first height. -/
theorem out_kerSide (x0 : Vec Ideal S4096x1 .f32) (x1 x2 : Vec Ideal S1x2048 .f32) (x3 : Vec Ideal S1x1 .f32)
    (p : Fin 4096) (X : EReal) (bp : Fin 2048 → EReal) (v : Fin 2049 → EReal)
    (hX : x0 (ix2 p (0 : Fin 1)) = X) (hB : ∀ j : Fin 2048, x1 (ix2 (0 : Fin 1) j) = bp j)
    (hD : ∀ j : Fin 2048, x2 (ix2 (0 : Fin 1) j) = v j.succ - v j.castSucc)
    (hV : x3 (ix2 (0 : Fin 1) (0 : Fin 1)) = v 0) :
    out0_4 x0 x1 x2 x3 (ix2 p (0 : Fin 1)) = StepNet.kerSide X bp v := by
  rw [out_apply]
  have hr : ∀ c : Fin 8, runAt x0 x1 x2 p c = StepNet.chunk X bp v c := fun c => by
    unfold runAt StepNet.chunk
    refine Finset.sum_congr rfl fun k _ => ?_
    rw [hX, hB, hD]
  unfold StepNet.kerSide
  rw [hr 0, hr 1, hr 2, hr 3, hr 4, hr 5, hr 6, hr 7, hV]

end Cert.StepNet.Ker

end
-- ==== Proof.KernelArr.lean ====
/-
  From the sixteen blocks to the whole result.

  The grid has sixteen points; point t holds rows 4096 t … 4096 t + 4095 of the points column and writes the same rows
  of the result, while the breakpoints' row, the jumps' row and the first height are the same whole arrays at every
  point.  Three of those arrays are written by the host before the launch: the breakpoints laid as one row, the jumps
  v_{j+1} − v_j (the heights without the first, minus the heights without the last) laid as one row, and the first
  height.  So the row p of point t's block is the result function at row 4096 t + p of the three inputs, the sixteen
  blocks tile the 65536 rows (row R lies in block R / 4096), and the result array ends as the result function.
-/
import proofs.«162538_j11785390260311_2_alg».proof.Proof.Gen.KernelIdeal.Value
import proofs.«162538_j11785390260311_2_alg».proof.Proof.KernelPay
import Idealize.ShloMosaic.Lib.StableHlo.Run
import Idealize.ShloMosaic.Lib.Pipeline.Value
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.StepNet.Arr

open Cert.KernelIdeal Cert.KernelIdeal.Gen Cert.KernelIdeal.Value

variable (m : (ℓ : Loc nD τ sig) → Buf (Elt Ideal) ℓ) (ρ : Dev nD → PrngReg)

/-- The three inputs as launched, on core c. -/
abbrev xs (c : Dev nD) : S65536x1.Idx → Elt Ideal .f32 := m ((c : Thread nD τ).loc main_arg0)
abbrev bs (c : Dev nD) : S2048.Idx → Elt Ideal .f32 := m ((c : Thread nD τ).loc main_arg1)
abbrev vs (c : Dev nD) : S2049x1.Idx → Elt Ideal .f32 := m ((c : Thread nD τ).loc main_arg2)

/-! ## The arrays the host writes before the launch -/

/-- The breakpoints laid as one row. -/
theorem V_bp (c : Dev nD) : (V m c main_v7 : S1x2048.Idx → Elt Ideal .f32)
    = shapeCast S1x2048 (bs m c) shapeCasts_S2048_S1x2048 := by
  dsimp only [Gen.V, Gen.hostOps0]; after_results <;> rfl

/-- The jumps laid as one row: the heights from the second on, minus the heights up to the last but one. -/
theorem V_jump (c : Dev nD) : (V m c main_v5 : S1x2048.Idx → Elt Ideal .f32)
    = shapeCast S1x2048
        (subf (F := Ideal) (φ := .f32) (shapeCast S2048 (extractStridedSlice S2048x1 ![1, 0] (vs m c) slices_S2049x1_S2048x1_1_0) shapeCasts_S2048x1_S2048)
          (shapeCast S2048 (extractStridedSlice S2048x1 ![0, 0] (vs m c) slices_S2049x1_S2048x1_0_0) shapeCasts_S2048x1_S2048))
        shapeCasts_S2048_S1x2048 := by
  dsimp only [Gen.V, Gen.hostOps0]; after_results <;> rfl

/-- The first height. -/
theorem V_first (c : Dev nD) : (V m c main_v6 : S1x1.Idx → Elt Ideal .f32)
    = extractStridedSlice S1x1 ![0, 0] (vs m c) slices_S2049x1_S1x1_0_0 := by
  dsimp only [Gen.V, Gen.hostOps0]; after_results <;> rfl

/-- A column of 2048 read as a flat array: place j is row j. -/
theorem flat_of_column {α : Type} (Y : S2048x1.Idx → α) (j : Fin 2048) :
    shapeCast S2048 Y shapeCasts_S2048x1_S2048 (ix1 j) = Y (ix2 j (0 : Fin 1)) :=
  shapeCast_apply Y shapeCasts_S2048x1_S2048 _ _ (by
    rw [Shape.rowMajor_val_two, Shape.rowMajor_val_one]
    show j.val * 1 + 0 = j.val
    omega)

/-- Place j of the breakpoints' row is breakpoint j. -/
theorem V_bp_apply (c : Dev nD) (j : Fin 2048) :
    (V m c main_v7 : S1x2048.Idx → Elt Ideal .f32) (ix2 (0 : Fin 1) j) = bs m c (ix1 j) := by
  rw [V_bp, shapeCast_a_1a_apply]

/-- Place j of the jumps' row is height j + 1 minus height j. -/
theorem V_jump_apply (c : Dev nD) (j : Fin 2048) :
    (V m c main_v5 : S1x2048.Idx → Elt Ideal .f32) (ix2 (0 : Fin 1) j)
      = vs m c (ix2 j.succ (0 : Fin 1)) - vs m c (ix2 j.castSucc (0 : Fin 1)) := by
  rw [V_jump, shapeCast_a_1a_apply, subf_apply, flat_of_column, flat_of_column]
  have e1 : extractStridedSlice S2048x1 ![1, 0] (vs m c) slices_S2049x1_S2048x1_1_0 (ix2 j (0 : Fin 1))
      = vs m c (ix2 j.succ (0 : Fin 1)) :=
    extractStridedSlice_apply ![1, 0] (vs m c) slices_S2049x1_S2048x1_1_0 (ix2 j (0 : Fin 1)) (ix2 j.succ (0 : Fin 1))
      (fun a => by
        match a with
        | ⟨0, _⟩ => show j.val + 1 = 1 + j.val; omega
        | ⟨1, _⟩ => rfl)
  have e0 : extractStridedSlice S2048x1 ![0, 0] (vs m c) slices_S2049x1_S2048x1_0_0 (ix2 j (0 : Fin 1))
      = vs m c (ix2 j.castSucc (0 : Fin 1)) :=
    extractStridedSlice_apply ![0, 0] (vs m c) slices_S2049x1_S2048x1_0_0 (ix2 j (0 : Fin 1)) (ix2 j.castSucc (0 : Fin 1))
      (fun a => by
        match a with
        | ⟨0, _⟩ => show j.val = 0 + j.val; omega
        | ⟨1, _⟩ => rfl)
  rw [e1, e0]

/-- The one entry of the first height's array is height 0. -/
theorem V_first_apply (c : Dev nD) :
    (V m c main_v6 : S1x1.Idx → Elt Ideal .f32) (ix2 (0 : Fin 1) (0 : Fin 1)) = vs m c (ix2 (0 : Fin 2049) (0 : Fin 1)) := by
  rw [V_first]
  exact extractStridedSlice_apply ![0, 0] (vs m c) slices_S2049x1_S1x1_0_0 (ix2 (0 : Fin 1) (0 : Fin 1))
    (ix2 (0 : Fin 2049) (0 : Fin 1)) (fun a => by
      match a with
      | ⟨0, _⟩ => rfl
      | ⟨1, _⟩ => rfl)

/-! ## The windows' index maps over the grid -/

/-- The points' and the result's blocks move with the grid point along the rows; the three resident arrays stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 16 := by
  have h : t.val < cfg0.N := t.isLt
  have hN : cfg0.N = 16 := N_0
  omega

/-! ## What a point writes back -/

/-- Row p of point t's block is the result function at row 4096 t + p. -/
theorem block_row (c : Dev nD) (t : Fin cfg0.N) (p : Fin 4096) (R : Fin 65536) (hR : R.val = 4096 * t.val + p.val) :
    out0_4 (iblk m c 0 t) (iblk m c 1 t) (iblk m c 2 t) (iblk m c 3 t) (ix2 p (0 : Fin 1))
      = StepNet.G (xs m c) (bs m c) (vs m c) (ix2 R (0 : Fin 1)) := by
  obtain ⟨e00, e01, e10, e11, e20, e21, e30, e31, e40, e41⟩ := idx_facts t
  refine Ker.out_kerSide (iblk m c 0 t) (iblk m c 1 t) (iblk m c 2 t) (iblk m c 3 t) p
    (xs m c (ix2 R (0 : Fin 1))) (fun j => bs m c (ix1 j)) (fun k => vs m c (ix2 k (0 : Fin 1))) ?_ ?_ ?_ ?_
  · show V m c main_arg0 (((cfg0.win 0).blk t).view.emb (ix2 p (0 : Fin 1))) = _
    rw [V_main_arg0]
    refine congrArg (xs m c) (funext fun a => Fin.ext ?_)
    match a with
    | ⟨0, _⟩ => show win0_0.index t (0 : Fin 2) * 4096 + 1 * p.val = R.val; rw [e00, hR]; omega
    | ⟨1, _⟩ => show win0_0.index t (1 : Fin 2) * 1 + 1 * 0 = 0; rw [e01]
  · intro j
    show (V m c main_v7 : S1x2048.Idx → Elt Ideal .f32) (((cfg0.win 1).blk t).view.emb (ix2 (0 : Fin 1) j)) = _
    have he : ((cfg0.win 1).blk t).view.emb (ix2 (0 : Fin 1) j) = ix2 (0 : Fin 1) j := funext fun a => Fin.ext (by
      match a with
      | ⟨0, _⟩ => show win0_1.index t (0 : Fin 2) * 1 + 1 * 0 = 0; rw [e10]
      | ⟨1, _⟩ => show win0_1.index t (1 : Fin 2) * 2048 + 1 * j.val = j.val; rw [e11]; omega)
    rw [he, V_bp_apply]
  · intro j
    show (V m c main_v5 : S1x2048.Idx → Elt Ideal .f32) (((cfg0.win 2).blk t).view.emb (ix2 (0 : Fin 1) j)) = _
    have he : ((cfg0.win 2).blk t).view.emb (ix2 (0 : Fin 1) j) = ix2 (0 : Fin 1) j := funext fun a => Fin.ext (by
      match a with
      | ⟨0, _⟩ => show win0_2.index t (0 : Fin 2) * 1 + 1 * 0 = 0; rw [e20]
      | ⟨1, _⟩ => show win0_2.index t (1 : Fin 2) * 2048 + 1 * j.val = j.val; rw [e21]; omega)
    rw [he, V_jump_apply]
  · show (V m c main_v6 : S1x1.Idx → Elt Ideal .f32) (((cfg0.win 3).blk t).view.emb (ix2 (0 : Fin 1) (0 : Fin 1))) = _
    have he : ((cfg0.win 3).blk t).view.emb (ix2 (0 : Fin 1) (0 : Fin 1)) = ix2 (0 : Fin 1) (0 : Fin 1) :=
      funext fun a => Fin.ext (by
        match a with
        | ⟨0, _⟩ => show win0_3.index t (0 : Fin 2) * 1 + 1 * 0 = 0; rw [e30]
        | ⟨1, _⟩ => show win0_3.index t (1 : Fin 2) * 1 + 1 * 0 = 0; rw [e31])
    rw [he, V_first_apply]

/-- WHAT POINT t WRITES BACK is block t of the result function of the inputs as launched. -/
theorem flushed_eq (c : Dev nD) (t : Fin cfg0.N) :
    (dats m 0 c).flushed 4 t
      = ((cfg0.win 4).blk t).view.read (Elt Ideal) (StepNet.G (xs m c) (bs m c) (vs m c)) := by
  rw [Value.flushed4]
  obtain ⟨e00, e01, e10, e11, e20, e21, e30, e31, e40, e41⟩ := idx_facts t
  have ht := t_lt t
  funext y
  obtain ⟨p, q, rfl⟩ : ∃ (p : Fin 4096) (q : Fin 1), y = ix2 p q := ⟨y 0, y 1, eq_ix2 y⟩
  obtain rfl : q = 0 := Subsingleton.elim _ _
  show out0_4 (iblk m c 0 t) (iblk m c 1 t) (iblk m c 2 t) (iblk m c 3 t) (ix2 p (0 : Fin 1))
    = StepNet.G (xs m c) (bs m c) (vs m c) (((cfg0.win 4).blk t).view.emb (ix2 p (0 : Fin 1)))
  have he : ((cfg0.win 4).blk t).view.emb (ix2 p (0 : Fin 1))
      = ix2 (⟨4096 * t.val + p.val, by have := p.isLt; omega⟩ : Fin 65536) (0 : Fin 1) := funext fun a => Fin.ext (by
    match a with
    | ⟨0, _⟩ => show win0_4.index t (0 : Fin 2) * 4096 + 1 * p.val = 4096 * t.val + p.val; rw [e40]; omega
    | ⟨1, _⟩ => show win0_4.index t (1 : Fin 2) * 1 + 1 * 0 = 0; rw [e41])
  rw [he]
  exact block_row m c t p _ rfl

/-! ## The blocks tile the rows -/

/-- An index of the result array is in point t's block iff each coordinate is in the block's range on its axis. -/
theorem mem_blk (t : Fin cfg0.N) (i : S65536x1.Idx) :
    i ∈ ((cfg0.win 4).blk t).view.set ↔ ∀ a : Fin 2, win0_4.index t a * S4096x1.size a ≤ (i a).val
      ∧ (i a).val < win0_4.index t a * S4096x1.size a + S4096x1.size a := by
  show i ∈ ((View.whole main_v8).slice (win0_4.rect t)).set ↔ _
  rw [View.set_slice_whole, Rect.mem_set_unit]
  exact Iff.rfl

/-- Row R lies in the block of point R / 4096. -/
theorem cover (i : S65536x1.Idx) :
    ∃ t : Fin cfg0.N, (cfg0.win 4).flush t = true ∧ i ∈ ((cfg0.win 4).blk t).view.set := by
  have hi0 : (i 0).val < 65536 := (i 0).isLt
  have hi1 : (i 1).val < 1 := (i 1).isLt
  let t : Fin cfg0.N := ⟨(i 0).val / 4096, by have hN : cfg0.N = 16 := N_0; omega⟩
  obtain ⟨e00, e01, e10, e11, e20, e21, e30, e31, e40, e41⟩ := idx_facts t
  have htv : t.val = (i 0).val / 4096 := rfl
  refine ⟨t, flush0_4 t, ?_⟩
  rw [mem_blk]
  intro a
  match a with
  | ⟨0, _⟩ =>
    show win0_4.index t (0 : Fin 2) * 4096 ≤ (i 0).val ∧ (i 0).val < win0_4.index t (0 : Fin 2) * 4096 + 4096
    rw [e40, htv]; omega
  | ⟨1, _⟩ =>
    show win0_4.index t (1 : Fin 2) * 1 ≤ (i 1).val ∧ (i 1).val < win0_4.index t (1 : Fin 2) * 1 + 1
    rw [e41]; omega

/-! ## The result array, and the run -/

/-- THE RESULT ARRAY after the run is the result function of the inputs as launched. -/
theorem final (c : Dev nD) : (dats m 0 c).arrAt 4 cfg0.N = StepNet.G (xs m c) (bs m c) (vs m c) :=
  (dats m 0 c).arrAt_eq_of_cover 4 (StepNet.G (xs m c) (bs m c) (vs m c)) (fun t _ => flushed_eq m c t) (cover)

/-- The run, read: the result at the result function of the inputs, the inputs unchanged. -/
theorem run : θ_run defs (onTc (τ := τ) (main (F := Ideal))) ⟨m, fun _ => 0, ρ⟩ fun r => ∀ c : Dev nD,
      r.2.mem ((c : Thread nD τ).loc main_v8) = StepNet.G (xs m c) (bs m c) (vs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.StepNet.Arr

end
-- ==== Proof.lean ====
/-
  A piecewise-constant function of one variable, evaluated two ways.

  The inputs are 65536 points x, 2048 breakpoints b and 2049 heights v.  The value at a point is the height of the region
  the point falls in: the reference builds the one-hot region vector  (1 − h_0, h_0 − h_1, …, h_2046 − h_2047, h_2047)  from
  the indicators h_j = [b_j < x] and contracts it with the heights; the kernel starts from v_0 and adds the jump
  v_{j+1} − v_j for every breakpoint below the point, 256 breakpoints at a time.  By summation by parts the two are one
  number whenever the heights are real (Proof/Telescope.lean); the precondition makes them so (Proof/Finite.lean).  The
  reference's element is read off its program in Proof/RefRead.lean, a grid point's stored element in
  Proof/KernelPay.lean, and the sixteen blocks are put together into the result array in Proof/KernelArr.lean.

  No float operation of the kernel is rewritten by its idealization, so that conjunct asks nothing; the three programs'
  termination and unchanged inputs are their runs with the result forgotten.
-/
import proofs.«162538_j11785390260311_2_alg».proof.Defs
import proofs.«162538_j11785390260311_2_alg».proof.Proof.Gen.Kernel
import proofs.«162538_j11785390260311_2_alg».proof.Proof.Gen.Kernel.Skeleton
import proofs.«162538_j11785390260311_2_alg».proof.Proof.Gen.Kernel.Launch
import proofs.«162538_j11785390260311_2_alg».proof.Proof.Gen.Kernel.Points
import proofs.«162538_j11785390260311_2_alg».proof.Proof.Gen.Kernel.Frame
import proofs.«162538_j11785390260311_2_alg».proof.Proof.Gen.KernelIdeal
import proofs.«162538_j11785390260311_2_alg».proof.Proof.Gen.KernelIdeal.Skeleton
import proofs.«162538_j11785390260311_2_alg».proof.Proof.Gen.KernelIdeal.Launch
import proofs.«162538_j11785390260311_2_alg».proof.Proof.Gen.KernelIdeal.Points
import proofs.«162538_j11785390260311_2_alg».proof.Proof.Gen.KernelIdeal.Frame
import proofs.«162538_j11785390260311_2_alg».proof.Proof.Gen.ReferenceIdeal
import proofs.«162538_j11785390260311_2_alg».proof.Proof.Gen.Pre_finite_inputs
import proofs.«162538_j11785390260311_2_alg».proof.Proof.Gen.KernelIdeal.Value
import proofs.«162538_j11785390260311_2_alg».proof.Proof.Gen.ReferenceIdeal.Run
import proofs.«162538_j11785390260311_2_alg».proof.Proof.Gen.ReferenceIdeal.Read
import proofs.«162538_j11785390260311_2_alg».proof.Proof.Finite
import proofs.«162538_j11785390260311_2_alg».proof.Proof.RefRead
import proofs.«162538_j11785390260311_2_alg».proof.Proof.KernelArr
import Idealize.ShloMosaic.Adequacy
import Idealize.ShloMosaic.Init

noncomputable section

namespace Cert.Proof

open Idealize.ShloMosaic Idealize.SL.Sem

/-- The word-level kernel runs, and leaves its inputs as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's run with its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the result function of the inputs: the kernel block by block, the reference by the staircase
    law, which holds because the precondition makes every height a real number. -/
theorem algebraic : Cert.algebraic_KernelIdeal_ReferenceIdeal := by
  intro m ρ m' ρ' hpre hagree
  refine ⟨fun c => Cert.StepNet.G (Cert.StepNet.Arr.xs m c) (Cert.StepNet.Arr.bs m c) (Cert.StepNet.Arr.vs m c),
    Cert.StepNet.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2.1, (hagree c).2.2]
  exact Cert.StepNet.Ref.result_eq_G _ _ _ (fun i => Cert.StepNet.heights_real _ _ _ (hpre c) i)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
